-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x8192x1024 .f32) (main_arg1 : FVec F S1024 .f32) (main_arg2 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x8192x1024 : Shape := ⟨3, ![4, 8192, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x1024_S32768x1024 : S4x8192x1024.ShapeCasts S32768x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S4x8192x1024 : S32768x1024.ShapeCasts S4x8192x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S1x1x1024, .f32⟩
  | .hbm, ⟨44, _⟩ => ⟨S4x8192x1024, .f32⟩
  | .hbm, ⟨45, _⟩ => ⟨S4x8192x1024, .f32⟩
  | .hbm, ⟨46, _⟩ => ⟨S1x1x1024, .f32⟩
  | .hbm, ⟨47, _⟩ => ⟨S4x8192x1024, .f32⟩
  | .hbm, ⟨48, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)

variable [Facts₀]

class Facts : Prop extends Facts₀ where

variable [Facts]
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.LibRecipLaws.lean ====
/-
  Quotients of extended reals by a divisor that is not zero, and the four 32-bit float words a mean / variance /
  Newton square root is written with.

  On the extended reals the quotient `x / y` is `x · y⁻¹` whenever `y ≠ 0` (with `(±∞)⁻¹ = 0`), while a quotient by
  zero is the infinity of the numerator's sign and `0 / 0` is `-∞`.  So multiplying by the reciprocal `1 / y` is
  dividing by `y` exactly when `y ≠ 0`: at `y = 0` the reciprocal is `+∞`, and `0 · ∞ = 0` differs from `0 / 0 = -∞`.
  Positivity is what keeps a computation off that corner: a non-negative numerator over a positive divisor is
  non-negative, a square is non-negative whether finite or not, and so is a sum of squares.
-/
import Idealize.ShloMosaic.PureOps.Ideal
import Idealize.ShloMosaic.PureOps.Ideal.Laws

noncomputable section

namespace Cert.RecipLaws

open Idealize.ShloMosaic

/-! ## Quotients by a nonzero divisor -/

/-- Off zero the quotient is the product with the inverse. -/
theorem div_of_ne_zero {x y : EReal} (hy : y ≠ 0) : Ideal.div x y = x * y⁻¹ := by
  unfold Ideal.div
  rw [if_neg hy]

/-- Multiplying by the reciprocal of a nonzero `y` is dividing by `y`, at every `x`, the infinities included. -/
theorem mul_recip {x y : EReal} (hy : y ≠ 0) : x * Ideal.div 1 y = Ideal.div x y := by
  rw [div_of_ne_zero hy, div_of_ne_zero hy, one_mul]

/-- A non-negative numerator over a positive divisor (`+∞` allowed, whose inverse is `0`) is non-negative. -/
theorem div_nonneg_of_pos {x y : EReal} (hx : 0 ≤ x) (hy : 0 < y) : 0 ≤ Ideal.div x y := by
  rw [div_of_ne_zero hy.ne']
  exact EReal.mul_nonneg hx (EReal.inv_nonneg_of_nonneg hy.le)

/-! ## Squares -/

/-- A square is non-negative: `(-∞)·(-∞) = +∞`, and a finite square is a real square. -/
theorem mul_self_nonneg_ereal (x : EReal) : 0 ≤ x * x := by
  rcases le_total 0 x with h | h
  · exact EReal.mul_nonneg h h
  · exact EReal.mul_nonneg_iff.mpr (Or.inr ⟨h, h⟩)

/-- So a finite sum of squares is non-negative. -/
theorem sum_mul_self_nonneg_ereal {ι : Type} (s : Finset ι) (f : ι → EReal) : 0 ≤ ∑ k ∈ s, f k * f k :=
  Finset.sum_nonneg fun k _ => mul_self_nonneg_ereal (f k)

/-! ## The float words -/

/-- The word of `1024.0`. -/
theorem ofBits_1024 : Ideal.ofBits .f32 0x44800000#32 = ((1024 : ℝ) : EReal) := by
  simp [Ideal.ofBits, Ideal.ieee, -EReal.coe_mul]; norm_num

/-- The word of `0.5`. -/
theorem ofBits_half : Ideal.ofBits .f32 0x3F000000#32 = ((1 / 2 : ℝ) : EReal) := by
  simp [Ideal.ofBits, Ideal.ieee, -EReal.coe_mul]; norm_num

/-- The word of `1.0`. -/
theorem ofBits_one : Ideal.ofBits .f32 0x3F800000#32 = 1 := by
  simp [Ideal.ofBits, Ideal.ieee, -EReal.coe_mul]; norm_num

/-- The word nearest `5e-5` denotes a positive real (`13743895 · 2⁻³⁸`). -/
theorem ofBits_5em5_pos : 0 < Ideal.ofBits .f32 0x3851B717#32 := by
  simp [Ideal.ofBits, Ideal.ieee, -EReal.coe_mul]

theorem ofBits_1024_pos : 0 < Ideal.ofBits .f32 0x44800000#32 := by
  rw [ofBits_1024]; exact_mod_cast (by norm_num : (0 : ℝ) < 1024)

theorem ofBits_half_pos : 0 < Ideal.ofBits .f32 0x3F000000#32 := by
  rw [ofBits_half]; exact_mod_cast (by norm_num : (0 : ℝ) < 1 / 2)

end Cert.RecipLaws

end
-- ==== Proof.NormRow.lean ====
/-
  One row of a layer normalisation whose standard deviation is approached by four Newton steps, over the extended reals.

  For a row `r` of `n` entries: the mean is the row's sum over the width `1024`, the deviations are `r k - mean`, the
  spread is the mean of the squared deviations plus a small positive `eps`, and the scale is the fourth iterate of
  `l ↦ (l / a + a) · ½` started at `l = a`, where `a` is the spread.  The normalised row is
  `(r k - mean) / scale · w + b`.

  The one law proved here: multiplying the deviation by the reciprocal `1 / scale` gives the same row as dividing it by
  `scale`.  That holds because the scale is never zero — the spread is a non-negative number plus a positive one, and
  each Newton step sends a non-negative iterate to a positive one — and it needs no finiteness of the row: an
  infinite spread gives an infinite scale, whose inverse is `0` on both sides.
-/
import proofs.«173073_j15470472200509_2_alg».proof.Proof.LibRecipLaws

noncomputable section

namespace Cert.NormRow

open Idealize.ShloMosaic Cert.RecipLaws

/-- The row width as the programs write it: the word of `1024.0`. -/
def width : EReal := Ideal.ofBits .f32 0x44800000#32
/-- The shift added to the variance: the word nearest `5e-5`. -/
def eps : EReal := Ideal.ofBits .f32 0x3851B717#32
/-- The word of `0.5`. -/
def half : EReal := Ideal.ofBits .f32 0x3F000000#32
/-- The word of `1.0`. -/
def unit : EReal := Ideal.ofBits .f32 0x3F800000#32

theorem width_pos : 0 < width := ofBits_1024_pos
theorem eps_pos : 0 < eps := ofBits_5em5_pos
theorem half_pos : 0 < half := ofBits_half_pos
theorem unit_eq : unit = 1 := ofBits_one

/-! ## The Newton iteration -/

/-- One step towards the square root of `a`, from the iterate `l`. -/
def step (a l : EReal) : EReal := (Ideal.div l a + a) * half

/-- Four steps, started at `a` itself. -/
def root (a : EReal) : EReal := step a (step a (step a (step a a)))

/-- A step from a non-negative iterate is positive when `a` is: `l / a ≥ 0`, so `l / a + a ≥ a > 0`. -/
theorem step_pos {a l : EReal} (ha : 0 < a) (hl : 0 ≤ l) : 0 < step a l :=
  EReal.mul_pos (Right.add_pos_of_nonneg_of_pos (div_nonneg_of_pos hl ha) ha) half_pos

theorem root_pos {a : EReal} (ha : 0 < a) : 0 < root a :=
  step_pos ha (step_pos ha (step_pos ha (step_pos ha ha.le).le).le).le

/-! ## A row -/

variable {n : ℕ} (r : Fin n → EReal)

/-- The row's sum over the width. -/
def mean : EReal := Ideal.div (∑ k, r k) width

/-- An entry's deviation from the mean. -/
def dev (k : Fin n) : EReal := r k - mean r

/-- The mean squared deviation, shifted by `eps`. -/
def spread : EReal := Ideal.div (∑ k, dev r k * dev r k) width + eps

/-- The approximate standard deviation. -/
def scale : EReal := root (spread r)

/-- The normalised entry, scaled by `w` and shifted by `b`. -/
def normed (w b : EReal) (k : Fin n) : EReal := Ideal.div (dev r k) (scale r) * w + b

theorem spread_pos : 0 < spread r :=
  Right.add_pos_of_nonneg_of_pos (div_nonneg_of_pos (sum_mul_self_nonneg_ereal _ _) width_pos) eps_pos

theorem scale_ne_zero : scale r ≠ 0 := (root_pos (spread_pos r)).ne'

/-- The normalised entry depends on the row, the weight and the bias only through their values. -/
theorem normed_congr {r r' : Fin n → EReal} {w w' b b' : EReal} (hr : ∀ k, r k = r' k) (hw : w = w') (hb : b = b')
    (k : Fin n) : normed r w b k = normed r' w' b' k := by
  obtain rfl : r = r' := funext hr
  subst hw hb
  rfl

/-- The deviation times the reciprocal of the scale is the deviation over the scale. -/
theorem normed_of_recip (w b : EReal) (k : Fin n) :
    dev r k * Ideal.div unit (scale r) * w + b = normed r w b k := by
  unfold normed
  rw [unit_eq, mul_recip (scale_ne_zero r)]

end Cert.NormRow

end
-- ==== Proof.KerRows.lean ====
/-
  The kernel body's block, read at an entry.

  On a block of 1024 rows the body takes each row's sum with a lane reduction, keeps it as a `[1024, 1]` column, divides
  by `1024`, broadcasts the mean back along the row and subtracts; does the same with the squared deviations, adds
  `eps`, runs four Newton steps on the column, takes the reciprocal `1 / scale` of the column, and stores
  `deviation · reciprocal · w + b` with `w` and `b` one-row blocks broadcast down the rows.  At entry `(p, q)` that is
  the normalised entry `q` of row `p` of the block: the reciprocal form equals the quotient form because the scale is
  never zero.
-/
import proofs.«173073_j15470472200509_2_alg».proof.Proof.Gen.KernelIdeal.Skeleton
import proofs.«173073_j15470472200509_2_alg».proof.Proof.LibRowReduce
import proofs.«173073_j15470472200509_2_alg».proof.Proof.NormRow
import Idealize.ShloMosaic.Lib.ValueIdx
import Idealize.ShloMosaic.Lib.ValueLayout
import Idealize.ShloMosaic.Lib.Pipeline.Value

noncomputable section

namespace Cert.KernelIdeal.Rows

open Idealize.ShloMosaic Idealize.ShloMosaic.ValueIdx Cert.KernelIdeal Cert.KernelIdeal.Gen Cert.NormRow

/-- The lane sum of row `p` of a block. -/
theorem rowSum_apply (X : FVec Ideal S1024x1024 .f32) (p : Fin 1024) :
    multiReduction .add [1] S1024 X 0x00000000#32 reduces_S1024x1024_S1024 (.inl rfl) rfl (ix1 p)
      = ∑ k : Fin 1024, X (ix2 p k) :=
  Cert.RowReduce.multiReduction_add_row X 0x00000000#32 reduces_S1024x1024_S1024 (.inl rfl) rfl p

/-- Entry `(p, q)` of what the body stores, from the three blocks it loads. -/
theorem block_entry (x0 : Vec Ideal S1024x1024 .f32) (x1 x2 : Vec Ideal S1x1024 .f32) (p q : Fin 1024) :
    k0_pay1 (F := Ideal) x0 x1 x2 (ix2 p q)
      = normed (fun k : Fin 1024 => x0 (ix2 p k)) (x1 (ix2 (0 : Fin 1) q)) (x2 (ix2 (0 : Fin 1) q)) q := by
  rw [← normed_of_recip]
  unfold k0_pay1
  simp only [addf_apply, mulf_apply, subf_apply, divf_apply, broadcast_apply,
    Cert.RowReduce.broadcastTo_a1_ab_apply, broadcastTo_1b_ab_apply, Cert.RowReduce.shapeCast_a_a1_apply,
    shapeCast_self]
  rw [rowSum_apply, rowSum_apply]
  simp only [mulf_apply, subf_apply, divf_apply, broadcast_apply, Cert.RowReduce.broadcastTo_a1_ab_apply,
    Cert.RowReduce.shapeCast_a_a1_apply]
  rw [rowSum_apply]
  rfl

end Cert.KernelIdeal.Rows

end
-- ==== Proof.NormArray.lean ====
/-
  The normalised array: every row `(p, i, ·)` of a `[4, 8192, 1024]` array normalised on its own, entry `k` scaled by
  `w k` and shifted by `b k`.  Both programs are shown to end with this one function of their three arguments.
-/
import proofs.«173073_j15470472200509_2_alg».proof.Proof.NormRow
import Idealize.ShloMosaic.Lib.ValueIdx

noncomputable section

namespace Cert.NormRow

open Idealize.ShloMosaic Idealize.ShloMosaic.ValueIdx

/-- Entry `(p, i, k)` is the normalised entry `k` of the row `x (p, i, ·)`. -/
def normedArray (x : (⟨3, ![4, 8192, 1024]⟩ : Shape).Idx → EReal) (w b : (⟨1, ![1024]⟩ : Shape).Idx → EReal) :
    (⟨3, ![4, 8192, 1024]⟩ : Shape).Idx → EReal := fun j =>
  normed (fun k : Fin 1024 => x (ix3 (⟨(j 0).val, (j 0).isLt⟩ : Fin 4) (⟨(j 1).val, (j 1).isLt⟩ : Fin 8192) k))
    (w (ix1 (⟨(j 2).val, (j 2).isLt⟩ : Fin 1024))) (b (ix1 (⟨(j 2).val, (j 2).isLt⟩ : Fin 1024))) (⟨(j 2).val, (j 2).isLt⟩ : Fin 1024)

theorem normedArray_apply (x : (⟨3, ![4, 8192, 1024]⟩ : Shape).Idx → EReal) (w b : (⟨1, ![1024]⟩ : Shape).Idx → EReal)
    (p : Fin 4) (i : Fin 8192) (k : Fin 1024) :
    normedArray x w b (ix3 p i k) = normed (fun k' : Fin 1024 => x (ix3 p i k')) (w (ix1 k)) (b (ix1 k)) k := rfl

end Cert.NormRow

end
-- ==== Proof.LibMergeRows.lean ====
/-
  The leading two axes of a rank-3 array merged into one, and split again, read at an index.

  An `[n, a, b]` array and an `[n·a, b]` matrix hold the same elements in row-major order: row `p·a + i` of the
  matrix is the slab entry `(p, i, ·)`.  Both directions of the cast are stated with the merged row number `P` given
  as a variable together with the equation `P = p·a + i`, so that a caller can supply whatever spelling of the row
  number its own arithmetic produces.
-/
import Idealize.ShloMosaic.Lib.Pipeline.Value
import Idealize.ShloMosaic.Lib.ValueIdx

noncomputable section

namespace Cert.MergeRows

open Idealize.ShloMosaic Idealize.ShloMosaic.ValueIdx

variable {α : Type}

/-- `[n, a, b]` cast to `[N, b]`: entry `(P, j)` with `P = p·a + i` is the operand's entry `(p, i, j)`. -/
theorem shapeCast_merge_apply {n a b N : ℕ} (x : (⟨3, ![n, a, b]⟩ : Shape).Idx → α)
    (h : (⟨3, ![n, a, b]⟩ : Shape).ShapeCasts ⟨2, ![N, b]⟩) (p : Fin n) (i : Fin a) (j : Fin b) (P : Fin N)
    (hP : P.val = p.val * a + i.val) : shapeCast ⟨2, ![N, b]⟩ x h (ix2 P j) = x (ix3 p i j) :=
  shapeCast_apply x h _ _ (by
    rw [Shape.rowMajor_val_three, Shape.rowMajor_val_two]
    show (p.val * a + i.val) * b + j.val = P.val * b + j.val
    rw [hP])

/-- `[N, b]` cast to `[n, a, b]`: entry `(p, i, j)` is the operand's entry `(P, j)` with `P = p·a + i`. -/
theorem shapeCast_split_apply {n a b N : ℕ} (x : (⟨2, ![N, b]⟩ : Shape).Idx → α)
    (h : (⟨2, ![N, b]⟩ : Shape).ShapeCasts ⟨3, ![n, a, b]⟩) (p : Fin n) (i : Fin a) (j : Fin b) (P : Fin N)
    (hP : P.val = p.val * a + i.val) : shapeCast ⟨3, ![n, a, b]⟩ x h (ix3 p i j) = x (ix2 P j) :=
  shapeCast_apply x h _ _ (by
    rw [Shape.rowMajor_val_two, Shape.rowMajor_val_three]
    show P.val * b + j.val = (p.val * a + i.val) * b + j.val
    rw [hP])

end Cert.MergeRows

end
-- ==== Proof.KerArray.lean ====
/-
  The kernel's result array.

  The pallas_call walks a `[32768, 1024]` table in 32 blocks of 1024 rows; block `t` holds rows `1024·t … 1024·t + 1023`,
  and the one-row weight and bias blocks are the same at every point.  A row never crosses a block, so what point `t`
  writes back is block `t` of ONE function of the whole table: every row normalised on its own.  The 32 blocks cover the
  table (row `r` lies in block `r / 1024`), so the table ends holding that function.  Around the call the program only
  re-lays its data: the `[4, 8192, 1024]` argument is the table with row `8192·p + i` at `(p, i, ·)`, the weight and the
  bias are one-row matrices, and the result is the table cast back.
-/
import proofs.«173073_j15470472200509_2_alg».proof.Proof.Gen.KernelIdeal.Frame
import proofs.«173073_j15470472200509_2_alg».proof.Proof.KerRows
import proofs.«173073_j15470472200509_2_alg».proof.Proof.NormArray
import proofs.«173073_j15470472200509_2_alg».proof.Proof.LibMergeRows
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Rows

open Idealize.ShloMosaic Idealize.ShloMosaic.TcCoe Idealize.ShloMosaic.ValueIdx Idealize.SL.Sem
open Cert.KernelIdeal Cert.KernelIdeal.Gen Cert.NormRow

/-! ## The table, every row normalised -/

/-- Entry `(r, k)` is the normalised entry `k` of row `r` of `X`, with the one-row weight and bias read at `k`. -/
def table (X : S32768x1024.Idx → EReal) (w b : S1x1024.Idx → EReal) : S32768x1024.Idx → EReal := fun j =>
  normed (fun k : Fin 1024 => X (ix2 (⟨(j 0).val, (j 0).isLt⟩ : Fin 32768) k))
    (w (ix2 (0 : Fin 1) (⟨(j 1).val, (j 1).isLt⟩ : Fin 1024))) (b (ix2 (0 : Fin 1) (⟨(j 1).val, (j 1).isLt⟩ : Fin 1024)))
    (⟨(j 1).val, (j 1).isLt⟩ : Fin 1024)

theorem table_apply (X : S32768x1024.Idx → EReal) (w b : S1x1024.Idx → EReal) (j : S32768x1024.Idx) (P : Fin 32768)
    (q : Fin 1024) (h0 : (j 0).val = P.val) (h1 : (j 1).val = q.val) :
    table X w b j = normed (fun k : Fin 1024 => X (ix2 P k)) (w (ix2 (0 : Fin 1) q)) (b (ix2 (0 : Fin 1) q)) q := by
  have e0 : (⟨(j 0).val, (j 0).isLt⟩ : Fin 32768) = P := Fin.ext h0
  have e1 : (⟨(j 1).val, (j 1).isLt⟩ : Fin 1024) = q := Fin.ext h1
  dsimp only [table]
  rw [e0, e1]

/-! ## The blocks -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the table's and the result's block index is the point on the row axis and zero
    on the column axis; the weight's and the bias's is zero on both. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the table's block at point `t` is the table's entry `(1024·t + p, k)`. -/
theorem xblk_apply (c : Dev nD) (t : Fin cfg0.N) (p k : Fin 1024) (P : Fin 32768) (hP : P.val = t.val * 1024 + p.val) :
    (iblk m c 0 t : Vec Ideal S1024x1024 .f32) (ix2 p k : S1024x1024.Idx)
      = (V m c main_v0 : S32768x1024.Idx → EReal) (ix2 P k) := by
  obtain ⟨e0, e1, -⟩ := idx_facts t
  show V m c main_v0 (((cfg0.win 0).blk t).view.emb (ix2 p k : S1024x1024.Idx)) = V m c main_v0 (ix2 P k)
  refine congrArg (V m c main_v0) (funext fun a => Fin.ext ?_)
  match a with
  | ⟨0, _⟩ => show win0_0.index t (0 : Fin 2) * 1024 + 1 * p.val = P.val; omega
  | ⟨1, _⟩ => show win0_0.index t (1 : Fin 2) * 1024 + 1 * k.val = k.val; omega

/-- The weight's block at any point is the one-row weight matrix. -/
theorem wblk_apply (c : Dev nD) (t : Fin cfg0.N) (q : Fin 1024) :
    (iblk m c 1 t : Vec Ideal S1x1024 .f32) (ix2 (0 : Fin 1) q : S1x1024.Idx)
      = (V m c main_v1 : S1x1024.Idx → EReal) (ix2 (0 : Fin 1) q) := by
  obtain ⟨-, -, e2, e3, -⟩ := idx_facts t
  show V m c main_v1 (((cfg0.win 1).blk t).view.emb (ix2 (0 : Fin 1) q : S1x1024.Idx)) = V m c main_v1 (ix2 (0 : Fin 1) q)
  refine congrArg (V m c main_v1) (funext fun a => Fin.ext ?_)
  match a with
  | ⟨0, _⟩ => show win0_1.index t (0 : Fin 2) * 1 + 1 * (0 : Fin 1).val = (0 : Fin 1).val; omega
  | ⟨1, _⟩ => show win0_1.index t (1 : Fin 2) * 1024 + 1 * q.val = q.val; omega

/-- The bias's block at any point is the one-row bias matrix. -/
theorem bblk_apply (c : Dev nD) (t : Fin cfg0.N) (q : Fin 1024) :
    (iblk m c 2 t : Vec Ideal S1x1024 .f32) (ix2 (0 : Fin 1) q : S1x1024.Idx)
      = (V m c main_v2 : S1x1024.Idx → EReal) (ix2 (0 : Fin 1) q) := by
  obtain ⟨-, -, -, -, e4, e5, -⟩ := idx_facts t
  show V m c main_v2 (((cfg0.win 2).blk t).view.emb (ix2 (0 : Fin 1) q : S1x1024.Idx)) = V m c main_v2 (ix2 (0 : Fin 1) q)
  refine congrArg (V m c main_v2) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 1024 + 1 * q.val = q.val; omega

/-- What point `t` writes back is block `t` of the normalised table. -/
theorem flushed_eq (c : Dev nD) (t : Fin cfg0.N) :
    (dats m 0 c).flushed 3 t
      = ((cfg0.win 3).blk t).view.read (Elt Ideal) (table (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1024x1024) hz, View.ld_unit_zero (S := S1x1024) hz]
  funext j
  obtain ⟨p, q, rfl⟩ : ∃ (p q : Fin 1024), j = (ix2 p q : S1024x1024.Idx) := ⟨j 0, j 1, eq_ix2 j⟩
  obtain ⟨-, -, -, -, -, -, e6, e7⟩ := idx_facts t
  have hN : cfg0.N = 32 := N_0
  have hP : t.val * 1024 + p.val < 32768 := by have := t.isLt; omega
  show k0_pay1 (F := Ideal) (iblk m c 0 t) (iblk m c 1 t) (iblk m c 2 t) (ix2 p q)
      = table (V m c main_v0) (V m c main_v1) (V m c main_v2) (((cfg0.win 3).blk t).view.emb (ix2 p q : S1024x1024.Idx))
  refine (block_entry (iblk m c 0 t) (iblk m c 1 t) (iblk m c 2 t) p q).trans ?_
  refine Eq.trans ?_ (table_apply (V m c main_v0) (V m c main_v1) (V m c main_v2)
    (((cfg0.win 3).blk t).view.emb (ix2 p q : S1024x1024.Idx)) ⟨t.val * 1024 + p.val, hP⟩ q ?_ ?_).symm
  · exact normed_congr (fun k => xblk_apply m c t p k ⟨t.val * 1024 + p.val, hP⟩ rfl) (wblk_apply m c t q) (bblk_apply m c t q) q
  · show win0_3.index t (0 : Fin 2) * 1024 + 1 * p.val = t.val * 1024 + p.val; omega
  · show win0_3.index t (1 : Fin 2) * 1024 + 1 * q.val = q.val; omega

/-- An index of the table is in point `t`'s block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Row `r` of the table lies in the block of point `r / 1024`, and every point writes its block back. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hlt : (i 0).val / 1024 < cfg0.N := Nat.lt_of_lt_of_eq (by omega : (i 0).val / 1024 < 32) N_0.symm
  obtain ⟨-, -, -, -, -, -, e6, e7⟩ := idx_facts ⟨(i 0).val / 1024, hlt⟩
  refine ⟨⟨(i 0).val / 1024, hlt⟩, flush0_3 _, ?_⟩
  rw [mem_blk]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e6]
    show (i 0).val / 1024 * 1024 ≤ (i 0).val ∧ (i 0).val < (i 0).val / 1024 * 1024 + 1024
    omega
  | ⟨1, _⟩ =>
    show win0_3.index ⟨(i 0).val / 1024, hlt⟩ (1 : Fin 2) * 1024 ≤ (i 1).val
      ∧ (i 1).val < win0_3.index ⟨(i 0).val / 1024, hlt⟩ (1 : Fin 2) * 1024 + 1024
    rw [e7]
    omega

/-- So the table the region leaves is the normalised table of the three arrays the region found. -/
theorem final (c : Dev nD) :
    (dats m 0 c).arrAt 3 cfg0.N = table (V m c main_v0) (V m c main_v1) (V m c main_v2) :=
  (dats m 0 c).arrAt_eq_of_cover 3 _ (fun t _ => flushed_eq m c t) cover

/-! ## The host steps around the call -/

/-- The table the region finds: the argument with its two leading axes merged. -/
theorem V_table (c : Dev nD) : (V m c main_v0 : S32768x1024.Idx → EReal)
    = shapeCast S32768x1024 (m ((c.tc : Thread nD τ).loc main_arg0)) shapeCasts_S4x8192x1024_S32768x1024 := by
  show StableHlo.after hostOps0 (fun b => m (c, b)) (Proc.devRef .tc main_v0) = _
  after_results <;> rfl

/-- The weight as a one-row matrix. -/
theorem V_weight (c : Dev nD) : (V m c main_v1 : S1x1024.Idx → EReal)
    = shapeCast S1x1024 (m ((c.tc : Thread nD τ).loc main_arg1)) shapeCasts_S1024_S1x1024 := by
  show StableHlo.after hostOps0 (fun b => m (c, b)) (Proc.devRef .tc main_v1) = _
  after_results <;> rfl

/-- The bias as a one-row matrix. -/
theorem V_bias (c : Dev nD) : (V m c main_v2 : S1x1024.Idx → EReal)
    = shapeCast S1x1024 (m ((c.tc : Thread nD τ).loc main_arg2)) shapeCasts_S1024_S1x1024 := by
  show StableHlo.after hostOps0 (fun b => m (c, b)) (Proc.devRef .tc main_v2) = _
  after_results <;> rfl

/-- The region's result array, as the lines after the region read it. -/
theorem region_array (c : Dev nD) :
    Pipeline.withArrays spec0 c (V0 m c) (fun w => (dats m 0 c).arrAt w cfg0.N) (Proc.devRef .tc main_v3)
      = table (V m c main_v0) (V m c main_v1) (V m c main_v2) :=
  (Pipeline.withArrays_arr spec0 launch0.win.arr_inj c (V0 m c) (fun w => (dats m 0 c).arrAt w cfg0.N) 3).trans (final m c)

/-- The program's result: the table cast back to `[4, 8192, 1024]`, which is the normalised array of the arguments. -/
theorem result_eq (c : Dev nD) :
    Pipeline.afterTail₀ cfgs (dats m) 0 (V0 m) [hostOps1] c main_v4
      = normedArray (m ((c.tc : Thread nD τ).loc main_arg0)) (m ((c.tc : Thread nD τ).loc main_arg1))
          (m ((c.tc : Thread nD τ).loc main_arg2)) := by
  have e : Pipeline.afterTail₀ cfgs (dats m) 0 (V0 m) [hostOps1] c main_v4
      = shapeCast S4x8192x1024 (table (V m c main_v0) (V m c main_v1) (V m c main_v2))
          shapeCasts_S32768x1024_S4x8192x1024 := by
    unfold Pipeline.afterTail₀
    show StableHlo.after hostOps1 _ (Proc.devRef .tc main_v4) = _
    after_results
    exact congrArg (fun A : S32768x1024.Idx → EReal => shapeCast S4x8192x1024 A shapeCasts_S32768x1024_S4x8192x1024)
      (region_array m c)
  rw [e]
  funext j
  obtain ⟨p, i, k, rfl⟩ : ∃ (p : Fin 4) (i : Fin 8192) (k : Fin 1024), j = ix3 p i k := ⟨j 0, j 1, j 2, eq_ix3 j⟩
  have hP : p.val * 8192 + i.val < 32768 := by omega
  rw [normedArray_apply, Cert.MergeRows.shapeCast_split_apply _ _ p i k ⟨p.val * 8192 + i.val, hP⟩ rfl,
    table_apply _ _ _ _ ⟨p.val * 8192 + i.val, hP⟩ k rfl rfl]
  refine normed_congr (fun k' => ?_) ?_ ?_ k
  · rw [V_table]
    exact Cert.MergeRows.shapeCast_merge_apply _ _ p i k' ⟨p.val * 8192 + i.val, hP⟩ rfl
  · rw [V_weight]
    exact shapeCast_a_1a_apply _ _ (0 : Fin 1) k
  · rw [V_bias]
    exact shapeCast_a_1a_apply _ _ (0 : Fin 1) k

/-! ## The run, read -/

/-- Every weakly fair execution of the program ends with the result array at the normalised array of the arguments,
    and the arguments unchanged. -/
theorem run : θ_run defs (onTc (τ := τ) (main (F := Ideal))) ⟨m, fun _ => 0, ρ⟩ (fun r => ∀ c : Dev nD,
      r.2.mem ((c.tc : Thread nD τ).loc main_v4)
        = normedArray (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Rows

end
-- ==== Proof.RefRows.lean ====
/-
  The reference program's result is the normalised array.

  The reference computes, for every row `(p, i, ·)`: the row's sum (from the starting value `0`) over `1024`, kept as a
  `[4, 8192, 1]` column; the deviations; the mean squared deviation plus `eps`, again a column; four Newton steps on
  that column; and finally the deviation over the resulting scale, times `w k`, plus `b k`.  Read at an index, each
  column is the row's quantity, so the result at `(p, i, k)` is the normalised entry `k` of the row.
-/
import proofs.«173073_j15470472200509_2_alg».proof.Proof.Gen.ReferenceIdeal.Read
import proofs.«173073_j15470472200509_2_alg».proof.Proof.NormArray
import Idealize.ShloMosaic.Lib.ValueIdx

noncomputable section

namespace Cert.ReferenceIdeal.Rows

open Idealize.ShloMosaic Idealize.ShloMosaic.ValueIdx Cert.ReferenceIdeal Cert.ReferenceIdeal.Read Cert.NormRow

/-! ## Where each layout step reads -/

/-- The row sums read row `(p, i)` along its last axis. -/
theorem idx_sum (p : Fin 4) (i : Fin 8192) (u : Fin 1) (k : Fin 1024) :
    idx_main_v0 (idx_main_v1 (ix3 p i u)) k = ix3 p i k :=
  funext fun a => Fin.ext (by match a with | ⟨0, _⟩ => rfl | ⟨1, _⟩ => rfl | ⟨2, _⟩ => rfl)

theorem idx_sqsum (p : Fin 4) (i : Fin 8192) (u : Fin 1) (k : Fin 1024) :
    idx_main_v7 (idx_main_v8 (ix3 p i u)) k = ix3 p i k :=
  funext fun a => Fin.ext (by match a with | ⟨0, _⟩ => rfl | ⟨1, _⟩ => rfl | ⟨2, _⟩ => rfl)

/-- A column broadcast along the last axis reads the column's one entry of that row. -/
theorem idx_meancol (p : Fin 4) (i : Fin 8192) (k : Fin 1024) : idx_main_v4 (ix3 p i k) = ix3 p i (0 : Fin 1) :=
  funext fun a => Fin.ext (by match a with | ⟨0, _⟩ => rfl | ⟨1, _⟩ => rfl | ⟨2, _⟩ => rfl)

theorem idx_scalecol (p : Fin 4) (i : Fin 8192) (k : Fin 1024) : idx_main_v29 (ix3 p i k) = ix3 p i (0 : Fin 1) :=
  funext fun a => Fin.ext (by match a with | ⟨0, _⟩ => rfl | ⟨1, _⟩ => rfl | ⟨2, _⟩ => rfl)

/-- The weight and the bias, laid along the last axis, read their entry `k`. -/
theorem idx_weight (p : Fin 4) (i : Fin 8192) (k : Fin 1024) : idx_main_v31 (idx_main_v32 (ix3 p i k)) = ix1 k :=
  funext fun a => Fin.ext (by match a with | ⟨0, _⟩ => rfl)

theorem idx_bias (p : Fin 4) (i : Fin 8192) (k : Fin 1024) : idx_main_v34 (idx_main_v35 (ix3 p i k)) = ix1 k :=
  funext fun a => Fin.ext (by match a with | ⟨0, _⟩ => rfl)

/-! ## The columns -/

variable (x0 : (⟨S4x8192x1024, .f32⟩ : BufTy).Contents (Elt Ideal))

/-- The mean column at row `(p, i)` is the row's mean. -/
theorem mean_col (p : Fin 4) (i : Fin 8192) (u : Fin 1) :
    val_main_v3 (F := Ideal) x0 (ix3 p i u) = mean (fun k : Fin 1024 => x0 (ix3 p i k)) := by
  rw [val_main_v3_apply, val_main_v1_apply, val_main_v0_apply, val_main_v2_apply, val_main_cst_0_apply, val_main_cst_apply]
  simp only [idx_sum, Ideal.hostDivf_def, Ideal.ofBits_def, Ideal.ofBits_zero_f32, zero_add]
  rfl

/-- The centred array at `(p, i, k)` is the row's deviation at `k`. -/
theorem dev_entry (p : Fin 4) (i : Fin 8192) (k : Fin 1024) :
    val_main_v5 (F := Ideal) x0 (ix3 p i k) = dev (fun k' : Fin 1024 => x0 (ix3 p i k')) k := by
  rw [val_main_v5_apply, val_main_v4_apply, idx_meancol, mean_col]
  rfl

/-- The shifted-variance column at row `(p, i)` is the row's spread. -/
theorem spread_col (p : Fin 4) (i : Fin 8192) (u : Fin 1) :
    val_main_v12 (F := Ideal) x0 (ix3 p i u) = spread (fun k : Fin 1024 => x0 (ix3 p i k)) := by
  rw [val_main_v12_apply, val_main_v10_apply, val_main_v8_apply, val_main_v7_apply, val_main_v9_apply, val_main_cst_2_apply,
    val_main_v11_apply, val_main_cst_3_apply, val_main_cst_1_apply]
  simp only [idx_sqsum, val_main_v6_apply, dev_entry, Ideal.hostDivf_def, Ideal.addf_def, Ideal.mulf_def, Ideal.ofBits_def,
    Ideal.ofBits_zero_f32, zero_add]
  rfl

/-- Four Newton steps on that column give the row's scale. -/
theorem scale_col (p : Fin 4) (i : Fin 8192) (u : Fin 1) :
    val_main_v28 (F := Ideal) x0 (ix3 p i u) = scale (fun k : Fin 1024 => x0 (ix3 p i k)) := by
  simp only [val_main_v28_apply, val_main_v27_apply, val_main_cst_7_apply, val_main_v26_apply, val_main_v25_apply,
    val_main_v24_apply, val_main_v23_apply, val_main_cst_6_apply, val_main_v22_apply, val_main_v21_apply,
    val_main_v20_apply, val_main_v19_apply, val_main_cst_5_apply, val_main_v18_apply, val_main_v17_apply,
    val_main_v16_apply, val_main_v15_apply, val_main_cst_4_apply, val_main_v14_apply, val_main_v13_apply,
    spread_col, Ideal.hostDivf_def, Ideal.addf_def, Ideal.mulf_def, Ideal.ofBits_def]
  rfl

/-! ## The result -/

variable (x1 x2 : (⟨S1024, .f32⟩ : BufTy).Contents (Elt Ideal))

theorem result_entry (p : Fin 4) (i : Fin 8192) (k : Fin 1024) :
    val_main_v36 (F := Ideal) x0 x1 x2 (ix3 p i k) = normedArray x0 x1 x2 (ix3 p i k) := by
  rw [normedArray_apply]
  simp only [val_main_v36_apply, val_main_v33_apply, val_main_v30_apply, val_main_v29_apply, val_main_v32_apply,
    val_main_v31_apply, val_main_v35_apply, val_main_v34_apply, idx_scalecol, idx_weight, idx_bias, dev_entry, scale_col,
    Ideal.hostDivf_def, Ideal.addf_def, Ideal.mulf_def]
  rfl

/-- The reference's last stage is the normalised array of its three arguments. -/
theorem result_eq : val_main_v36 (F := Ideal) x0 x1 x2 = normedArray x0 x1 x2 := by
  funext j
  obtain ⟨p, i, k, rfl⟩ : ∃ (p : Fin 4) (i : Fin 8192) (k : Fin 1024), j = ix3 p i k := ⟨j 0, j 1, j 2, eq_ix3 j⟩
  exact result_entry x0 x1 x2 p i k

end Cert.ReferenceIdeal.Rows

end
-- ==== Proof.lean ====
/-
  A layer normalisation over rows of 1024 entries, with the standard deviation taken by four Newton steps
  `l ↦ (l / a + a) · ½` on the shifted variance `a = var + eps`: a tiled kernel against the plain array program.

  Over the extended reals both programs compute, for every row of the `[4, 8192, 1024]` argument, the mean, the
  deviations, the mean squared deviation plus `eps`, and the four Newton steps, with the same operations and the same
  float words; sums may be grouped differently and the kernel works on a `[32768, 1024]` re-laying of the argument in
  blocks of 1024 whole rows, neither of which changes a row's value.  They differ in the last step alone: the kernel
  multiplies the deviation by the reciprocal `1 / scale`, the reference divides the deviation by `scale`.  The two agree
  because the scale is never zero: a square is non-negative also at the infinities, so the variance is non-negative,
  `a` is positive, and each Newton step keeps the iterate positive.  Finiteness of the inputs is not used.

  The three frames are the generated ones (the reference's is its generated run with the result dropped); the
  idealisation rewrote nothing, so it is preserved trivially; the value claim pairs the kernel's run and the
  reference's run at the one array `normedArray` of the three arguments.
-/
import proofs.«173073_j15470472200509_2_alg».proof.Defs
import proofs.«173073_j15470472200509_2_alg».proof.Proof.Gen.Kernel
import proofs.«173073_j15470472200509_2_alg».proof.Proof.Gen.Kernel.Frame
import proofs.«173073_j15470472200509_2_alg».proof.Proof.Gen.KernelIdeal
import proofs.«173073_j15470472200509_2_alg».proof.Proof.Gen.KernelIdeal.Frame
import proofs.«173073_j15470472200509_2_alg».proof.Proof.Gen.ReferenceIdeal
import proofs.«173073_j15470472200509_2_alg».proof.Proof.Gen.Pre_finite_inputs
import proofs.«173073_j15470472200509_2_alg».proof.Proof.Gen.ReferenceIdeal.Run
import proofs.«173073_j15470472200509_2_alg».proof.Proof.Gen.ReferenceIdeal.Read
import proofs.«173073_j15470472200509_2_alg».proof.Proof.KerArray
import proofs.«173073_j15470472200509_2_alg».proof.Proof.RefRows
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the normalised array of their arguments, which agree. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.Rows.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
